-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S512x512 : Shape := ⟨2, ![512, 512]⟩
abbrev S512 : Shape := ⟨1, ![512]⟩
abbrev S1x512 : Shape := ⟨2, ![1, 512]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S512 .f32) (main_arg5 : FVec F S1x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  main_v28

def fn {F : FTy → Type} [FloatOps F] (main_arg0 : FVec F S64x2048x512 .f32) (main_arg1 : FVec F S512x512 .f32) (main_arg2 : FVec F S512 .f32) (main_arg3 : FVec F S512x512 .f32) (main_arg4 : FVec F S512 .f32) (main_arg5 : FVec F S1x512 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S64x2048x512 : Shape := ⟨3, ![64, 2048, 512]⟩
abbrev S512x512 : Shape := ⟨2, ![512, 512]⟩
abbrev S512 : Shape := ⟨1, ![512]⟩
abbrev S1x512 : Shape := ⟨2, ![1, 512]⟩
abbrev S131072x512 : Shape := ⟨2, ![131072, 512]⟩
abbrev S2048x512 : Shape := ⟨2, ![2048, 512]⟩
abbrev S_ : Shape := ⟨0, ![]⟩

abbrev nBuf : Space → Nat
  | .hbm => 18
  | .vmem => 6
  | .smem => 0
  | _ => 0

abbrev bufTy : (tb : Table) → Fin (tcTables nBuf tb) → BufTy
  | .hbm, ⟨0, _⟩ => ⟨S64x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S512x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S512x512, .f32⟩
  | .hbm, ⟨13, _⟩ => ⟨S512x512, .bf16⟩
  | .hbm, ⟨14, _⟩ => ⟨S131072x512, .f32⟩
  | .hbm, ⟨15, _⟩ => ⟨S131072x512, .f32⟩
  | .hbm, ⟨16, _⟩ => ⟨S64x2048x512, .f32⟩
  | .hbm, ⟨17, _⟩ => ⟨S_, .i32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x512_S512x512_1_0 : S512x512.Transposes [1, 0] S512x512
  bcast_S512_S1x512_1 : S512.BroadcastsInDim S1x512 (![1] : Fin 1 → Fin S1x512.rank)
  bitsLt_bf16_f32 : FTy.bits .bf16 < FTy.bits .f32
  shapeCasts_S64x2048x512_S131072x512 : S64x2048x512.ShapeCasts S131072x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S131072x512_S64x2048x512 : S131072x512.ShapeCasts S64x2048x512
  dot_S1x512_S512x512_S1x512_1_0_0_1_n_n_wf : DotDims.WF S1x512 S512x512 S1x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S512x512 : Shape := ⟨2, ![512, 512]⟩
abbrev S512 : Shape := ⟨1, ![512]⟩
abbrev S1x512 : Shape := ⟨2, ![1, 512]⟩
abbrev S1x1x512 : Shape := ⟨3, ![1, 1, 512]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S512x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S64x2048x512, .f32⟩
  | .hbm, ⟨11, _⟩ => ⟨S1x1x512, .f32⟩
  | .hbm, ⟨12, _⟩ => ⟨S64x2048x512, .f32⟩
  | .hbm, ⟨13, _⟩ => ⟨S64x2048x512, .f32⟩
  | .hbm, ⟨14, _⟩ => ⟨S1x1x512, .f32⟩
  | .hbm, ⟨15, _⟩ => ⟨S64x2048x512, .f32⟩
  | .hbm, ⟨16, _⟩ => ⟨S64x2048x512, .f32⟩
  | .hbm, ⟨17, _⟩ => ⟨S64x2048x512, .f32⟩
  | .hbm, ⟨18, _⟩ => ⟨S_, .i32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S512_S1x1x512_2 : S512.BroadcastsInDim S1x1x512 (![2] : Fin 1 → Fin S1x1x512.rank)
  bcast_S1x1x512_S64x2048x512_0_1_2 : S1x1x512.BroadcastsInDim S64x2048x512 (![0, 1, 2] : Fin 3 → Fin S64x2048x512.rank)
  bcast_S1x512_S1x1x512_0_2 : S1x512.BroadcastsInDim S1x1x512 (![0, 2] : Fin 2 → Fin S1x1x512.rank)
  dot_S1x512_S512x512_S1x512_1_0_0_1_n_n_wf : DotDims.WF S1x512 S512x512 S1x512 [1] [0] [0] [1] [] []
  dot_S64x2048x512_S512x512_S64x2048x512_2_1_01_0_n_n_wf : DotDims.WF S64x2048x512 S512x512 S64x2048x512 [2] [1] [0, 1] [0] [] []

variable [Facts₀]

def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S64x2048x512_S512x512_S64x2048x512_2_1_01_0_n_n : DotDims S64x2048x512 S512x512 S64x2048x512 where
  lhsContracting := [2]
  rhsContracting := [1]
  lhsNonContracting := [0, 1]
  rhsNonContracting := [0]
  lhsBatch := []
  rhsBatch := []
  wf := dot_S64x2048x512_S512x512_S64x2048x512_2_1_01_0_n_n_wf

class Facts : Prop extends Facts₀ where

variable [Facts]
-- ==== Proof.Spec.lean ====
/-
  The specification both programs meet.

  A recurrent cell applied at every timestep whose hidden state is never updated: the hidden-to-hidden term is one
  row P (1 × 512), the same at every timestep, and the output at batch b, timestep s, hidden unit h is

      tanh ( ( Σ_k x (b, s, k) · Wi (h, k)  +  bi (h) )  +  P (0, h) ).

  The reference adds the input bias to the projection first and the row P last; the kernel adds the two bias rows
  first and the projection last. Addition of extended reals is associative at the infinities too, so the two
  groupings are one value and no finiteness of the inputs is used.
-/
import Idealize.ShloMosaic.PureOps.Ideal
import Idealize.ShloMosaic.Lib.ValueIdx

noncomputable section

open scoped BigOperators

namespace Cert.RnnSpec

open Idealize.ShloMosaic Idealize.ShloMosaic.ValueIdx

/-- The input x: batch × time × embedding. -/
abbrev SX : Shape := ⟨3, ![64, 2048, 512]⟩
/-- A weight matrix: hidden × embedding. -/
abbrev SW : Shape := ⟨2, ![512, 512]⟩
/-- A bias vector. -/
abbrev SV : Shape := ⟨1, ![512]⟩
/-- A row of hidden units. -/
abbrev SR : Shape := ⟨2, ![1, 512]⟩

/-- The input projection: Σ_k x (b, s, k) · Wi (h, k). -/
def inProj (x : SX.Idx → EReal) (Wi : SW.Idx → EReal) (b : Fin 64) (s : Fin 2048) (h : Fin 512) : EReal :=
  ∑ k : Fin 512, x (ix3 b s k) * Wi (ix2 h k)

/-- The cell's output, in the reference's grouping: tanh ((projection + input bias) + hidden row). -/
def out (x : SX.Idx → EReal) (Wi : SW.Idx → EReal) (bi : SV.Idx → EReal) (P : SR.Idx → EReal) : SX.Idx → EReal :=
  fun i => Ideal.tanh ((inProj x Wi (i 0) (i 1) (i 2) + bi (ix1 (i 2))) + P (ix2 (0 : Fin 1) (i 2)))

/-- The output at (b, s, h). -/
theorem out_apply (x : SX.Idx → EReal) (Wi : SW.Idx → EReal) (bi : SV.Idx → EReal) (P : SR.Idx → EReal)
    (b : Fin 64) (s : Fin 2048) (h : Fin 512) :
    out x Wi bi P (ix3 b s h) = Ideal.tanh ((inProj x Wi b s h + bi (ix1 h)) + P (ix2 (0 : Fin 1) h)) := rfl

/-- The same output in the kernel's grouping, the two bias terms added first: associativity of the extended
    reals' addition. -/
theorem out_apply_biases_first (x : SX.Idx → EReal) (Wi : SW.Idx → EReal) (bi : SV.Idx → EReal) (P : SR.Idx → EReal)
    (b : Fin 64) (s : Fin 2048) (h : Fin 512) :
    out x Wi bi P (ix3 b s h) = Ideal.tanh (inProj x Wi b s h + (bi (ix1 h) + P (ix2 (0 : Fin 1) h))) := by
  rw [out_apply, add_assoc]

end Cert.RnnSpec

end
-- ==== Proof.RefIsSpec.lean ====
/-
  The reference computes the specification.

  Read one operation at a time, the reference's result at (b, s, h) is the host's tanh of
  ((Σ_k x (b, s, k) · Wi (h, k) + bi (h)) + P (0, h)), where P is its hidden-to-hidden row h0 · Whᵀ + bh: the
  contraction runs over the embedding axis of x and of Wi, and the two bias terms are broadcast along batch and
  time. The row P is carried whole; nothing here looks inside it.
-/
import proofs.«173775_j39865886441575_2_alg».proof.Proof.Gen.ReferenceIdeal.Read
import proofs.«173775_j39865886441575_2_alg».proof.Proof.Spec

noncomputable section

open scoped BigOperators

namespace Cert.ReferenceIdeal.RefValue

open Cert.ReferenceIdeal Cert.ReferenceIdeal.Read Idealize.ShloMosaic Idealize.ShloMosaic.ValueIdx Cert.RnnSpec

/-- The reference's result is the specification at its own hidden-to-hidden row. -/
theorem result_eq_out (x0 : (⟨S64x2048x512, .f32⟩ : BufTy).Contents (Elt Ideal)) (x1 : (⟨S512x512, .f32⟩ : BufTy).Contents (Elt Ideal))
    (x2 : (⟨S512, .f32⟩ : BufTy).Contents (Elt Ideal)) (x3 : (⟨S512x512, .f32⟩ : BufTy).Contents (Elt Ideal))
    (x4 : (⟨S512, .f32⟩ : BufTy).Contents (Elt Ideal)) (x5 : (⟨S1x512, .f32⟩ : BufTy).Contents (Elt Ideal)) :
    val_main_v11 (F := Ideal) x0 x1 x2 x3 x4 x5 = out x0 x1 x2 (val_main_v3 (F := Ideal) x3 x4 x5) := by
  funext i
  obtain ⟨b, s, h, rfl⟩ : ∃ (b : Fin 64) (s : Fin 2048) (h : Fin 512), i = ix3 b s h := ⟨i 0, i 1, i 2, eq_ix3 i⟩
  -- the operands' indices, by coordinates
  have el : ∀ k : Fin 512, lidx_main_v4 (ix3 b s h) k = ix3 b s k := fun k => funext fun a => Fin.ext (by
    match a with | ⟨0, _⟩ => rfl | ⟨1, _⟩ => rfl | ⟨2, _⟩ => rfl)
  have er : ∀ k : Fin 512, ridx_main_v4 (ix3 b s h) k = ix2 h k := fun k => funext fun a => Fin.ext (by
    match a with | ⟨0, _⟩ => rfl | ⟨1, _⟩ => rfl)
  have eb : idx_main_v5 (idx_main_v6 (ix3 b s h)) = ix1 h := funext fun a => Fin.ext (by
    match a with | ⟨0, _⟩ => rfl)
  have ep : idx_main_v8 (idx_main_v9 (ix3 b s h)) = ix2 (0 : Fin 1) h := funext fun a => Fin.ext (by
    match a with | ⟨0, _⟩ => rfl | ⟨1, _⟩ => rfl)
  rw [val_main_v11_apply, val_main_v10_apply, val_main_v7_apply, val_main_v4_apply, val_main_v6_apply, val_main_v5_apply,
    val_main_v9_apply, val_main_v8_apply, out_apply]
  simp only [el, er, eb, ep, Ideal.addf_def, Ideal.hostUnary_tanh_def]
  rfl

end Cert.ReferenceIdeal.RefValue

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.KernelBody.lean ====
/-
  The kernel body's result at one entry.

  One grid point holds a block X of 2048 rows of the flattened input (2048 × 512), the whole transposed input weight
  W (512 × 512) and the whole combined bias row B (1 × 512), and stores tanh (X · W + B), the bias row repeated down
  the rows. At the ideal values the change of float format on X is the identity and the product into a zero
  accumulator is the textbook sum, so entry (p, q) of what is stored is

      tanh ( Σ_k X (p, k) · W (k, q)  +  B (0, q) ).
-/
import proofs.«173775_j39865886441575_2_alg».proof.Proof.Gen.KernelIdeal.Skeleton
import proofs.«173775_j39865886441575_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Idealize.ShloMosaic.PlainDot

/-- The printed dimension numbers of the body's product are those of a plain 2048 × 512 by 512 × 512 product. -/
theorem dot_plain : dot_S2048x512_S512x512_S2048x512_1_0_0_1_n_n = DotDims.plain 2048 512 512 := rfl

/-- The bias row repeated down the rows reads, at (p, q), the row's entry q. -/
theorem bias_rows_apply (B : FVec Ideal S1x512 .f32) (p : Fin 2048) (q : Fin 512) :
    broadcastTo S2048x512 B broadcasts_S1x512_S2048x512 (ix2 p q) = B (ix2 (0 : Fin 1) q) :=
  broadcastTo_apply B broadcasts_S1x512_S2048x512 (ix2 p q) (ix2 (0 : Fin 1) q) (fun a => match a with
    | ⟨0, _⟩ => by show (0 : Nat) = if (1 : Nat) = 1 then 0 else _; rw [if_pos rfl]
    | ⟨1, _⟩ => by show q.val = if (512 : Nat) = 1 then 0 else q.val; rw [if_neg (by decide)])

/-- Entry (p, q) of what the body stores: tanh of row p of X against column q of W, plus the bias row's entry q. -/
theorem stored_apply (X : Vec Ideal S2048x512 .f32) (W : Vec Ideal S512x512 .bf16) (B : Vec Ideal S1x512 .f32)
    (p : Fin 2048) (q : Fin 512) :
    k0_pay1 (F := Ideal) X W B (ix2 p q)
      = Ideal.tanh ((∑ k : Fin 512, X (ix2 p k) * W (ix2 k q)) + B (ix2 (0 : Fin 1) q)) := by
  unfold k0_pay1
  rw [shapeCast_self, shapeCast_self, shapeCast_self]
  show Ideal.tanh (FloatOps.matmul (F := Ideal) dot_S2048x512_S512x512_S2048x512_1_0_0_1_n_n none
        (truncf (F := Ideal) .bf16 X bitsLt_bf16_f32) W (constant (F := Ideal) S2048x512 .f32 0x00000000#32) (ix2 p q)
      + broadcastTo S2048x512 B broadcasts_S1x512_S2048x512 (ix2 p q)) = _
  rw [bias_rows_apply, dot_plain]
  refine congrArg (fun z : EReal => Ideal.tanh (z + B (ix2 (0 : Fin 1) q))) ?_
  exact congrFun (matmul_zero_eq_mm (M := 2048) (K := 512) (N := 512) (φ₁ := .bf16) (φ₂ := .bf16) none
    (truncf (F := Ideal) .bf16 X bitsLt_bf16_f32) W) (ix2 p q)

end Cert.KernelIdeal.Body

end
-- ==== Proof.KernelBlocks.lean ====
/-
  From the blocks to the whole array.

  The grid has 64 points. Point t stages rows t · 2048 … t · 2048 + 2047 of the flattened input, the whole
  transposed weight and the whole bias row, and writes back rows t · 2048 … of the result. So what point t writes
  back is block t of ONE function of the three staged arrays — entry (r, q) is tanh (Σ_k X (r, k) · W (k, q) + B (0, q))
  — and since the 64 blocks of 2048 rows tile the 131072 rows, the result array ends holding that function.
-/
import proofs.«173775_j39865886441575_2_alg».proof.Proof.Gen.KernelIdeal.Frame
import proofs.«173775_j39865886441575_2_alg».proof.Proof.KernelBody
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The result array as one function of the three staged arrays: row r of X against column q of W, plus the bias
    row's entry q, through tanh. -/
def rowsOut (X : S131072x512.Idx → EReal) (W : S512x512.Idx → EReal) (B : S1x512.Idx → EReal) : S131072x512.Idx → EReal :=
  fun j => Ideal.tanh ((∑ k : Fin 512, X (ix2 (n0 := 131072) (j 0) k) * W (ix2 (n1 := 512) k (j 1))) + B (ix2 (n1 := 512) (0 : Fin 1) (j 1)))

/-- Its entry (r, q). -/
theorem rowsOut_apply (X : S131072x512.Idx → EReal) (W : S512x512.Idx → EReal) (B : S1x512.Idx → EReal)
    (r : Fin 131072) (q : Fin 512) :
    rowsOut X W B (ix2 r q) = Ideal.tanh ((∑ k : Fin 512, X (ix2 r k) * W (ix2 k q)) + B (ix2 (0 : Fin 1) q)) := rfl

theorem zero_offsets : (![0, 0] : Fin 2 → Nat) = fun _ => 0 := funext fun a => by fin_cases a <;> rfl

/-- Where each window's block sits at point t: the input rows and the result rows at block t, the weight and the
    bias row at their one block. Decided over the 64 points. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (m : (ℓ : Loc nD τ sig) → Buf (Elt Ideal) ℓ)

/-- What point t writes back is block t of the one function: the body's entry (p, q) reads row t · 2048 + p of the
    staged input, column q of the staged weight and entry q of the staged bias row. -/
theorem flushed_eq (c : Dev nD) (t : Fin cfg0.N) :
    (dats m 0 c).flushed 3 t
      = ((cfg0.win 3).blk t).view.read (Elt Ideal) (rowsOut (V m c main_v8) (V m c main_v7) (V m c main_v5)) := by
  show (cfg0.win 3).cut (grid0.coords t) ((dats m 0 c).after 3 t) = _
  rw [after0_3]
  unfold out0_3
  rw [View.canon_unit_zero zero_offsets]
  simp only [View.ld_unit_zero (S := S2048x512) zero_offsets, View.ld_unit_zero (S := S512x512) zero_offsets,
    View.ld_unit_zero (S := S1x512) zero_offsets]
  have ht : t.val < 64 := lt_of_lt_of_eq t.isLt N_0
  obtain ⟨e00, e01, e10, e11, e20, e21, e30, e31⟩ := block_index t
  funext y
  obtain ⟨p, q, rfl⟩ : ∃ (p : Fin 2048) (q : Fin 512), y = ix2 p q := ⟨y 0, y 1, eq_ix2 y⟩
  have hp : p.val < 2048 := p.isLt
  have hr : t.val * 2048 + p.val < 131072 := by omega
  -- the entry's place in the result array
  have hout : ((cfg0.win 3).blk t).view.emb (ix2 p q) = ix2 (⟨t.val * 2048 + p.val, hr⟩ : Fin 131072) q := by
    funext a; apply Fin.ext
    match a with
    | ⟨0, _⟩ => show win0_3.index t (0 : Fin 2) * 2048 + 1 * p.val = t.val * 2048 + p.val; rw [e30]; omega
    | ⟨1, _⟩ => show win0_3.index t (1 : Fin 2) * 512 + 1 * q.val = q.val; rw [e31]; omega
  -- the three input blocks read where the entry needs them
  have hx : ∀ k : Fin 512, iblk m c 0 t (ix2 p k) = V m c main_v8 (ix2 (⟨t.val * 2048 + p.val, hr⟩ : Fin 131072) k) := fun k => by
    show V m c main_v8 (((cfg0.win 0).blk t).view.emb (ix2 p k)) = _
    refine congrArg _ (funext fun a => Fin.ext ?_)
    match a with
    | ⟨0, _⟩ => show win0_0.index t (0 : Fin 2) * 2048 + 1 * p.val = t.val * 2048 + p.val; rw [e00]; omega
    | ⟨1, _⟩ => show win0_0.index t (1 : Fin 2) * 512 + 1 * k.val = k.val; rw [e01]; omega
  have hw : ∀ k : Fin 512, iblk m c 1 t (ix2 k q) = V m c main_v7 (ix2 k q) := fun k => by
    show V m c main_v7 (((cfg0.win 1).blk t).view.emb (ix2 k q)) = _
    refine congrArg _ (funext fun a => Fin.ext ?_)
    match a with
    | ⟨0, _⟩ => show win0_1.index t (0 : Fin 2) * 512 + 1 * k.val = k.val; rw [e10]; omega
    | ⟨1, _⟩ => show win0_1.index t (1 : Fin 2) * 512 + 1 * q.val = q.val; rw [e11]; omega
  have hb : iblk m c 2 t (ix2 (0 : Fin 1) q) = V m c main_v5 (ix2 (0 : Fin 1) q) := by
    show V m c main_v5 (((cfg0.win 2).blk t).view.emb (ix2 (0 : Fin 1) q)) = _
    refine congrArg _ (funext fun a => Fin.ext ?_)
    match a with
    | ⟨0, _⟩ => show win0_2.index t (0 : Fin 2) * 1 + 1 * 0 = 0; rw [e20]
    | ⟨1, _⟩ => show win0_2.index t (1 : Fin 2) * 512 + 1 * q.val = q.val; rw [e21]; omega
  show k0_pay1 (F := Ideal) (iblk m c 0 t) (iblk m c 1 t) (iblk m c 2 t) (ix2 p q)
    = rowsOut (V m c main_v8) (V m c main_v7) (V m c main_v5) (((cfg0.win 3).blk t).view.emb (ix2 p q))
  rw [hout, rowsOut_apply]
  refine (Body.stored_apply (iblk m c 0 t) (iblk m c 1 t) (iblk m c 2 t) p q).trans ?_
  simp only [hx, hw, hb]

/-- An index of the result array is in point t's block iff each coordinate is in the block's range. -/
theorem mem_block (t : Fin cfg0.N) (i : S131072x512.Idx) :
    i ∈ ((cfg0.win 3).blk t).view.set
      ↔ ∀ a : Fin 2, win0_3.index t a * S2048x512.size a ≤ (i a).val ∧ (i a).val < win0_3.index t a * S2048x512.size a + S2048x512.size a := by
  show i ∈ ((View.whole main_v9).slice (win0_3.rect t)).set ↔ _
  rw [View.set_slice_whole, Rect.mem_set_unit]
  exact Iff.rfl

/-- Every row r of the result array is in the block of point r / 2048, which writes back. -/
theorem covered (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  obtain ⟨t, ht⟩ : ∃ t : Fin cfg0.N, t.val = (i 0).val / 2048 :=
    ⟨⟨(i 0).val / 2048, lt_of_lt_of_eq (by omega : (i 0).val / 2048 < 64) N_0.symm⟩, rfl⟩
  obtain ⟨-, -, -, -, -, -, e30, e31⟩ := block_index t
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    rw [e30, ht]; omega
  | ⟨1, _⟩ =>
    show win0_3.index t (1 : Fin 2) * 512 ≤ (i 1).val ∧ (i 1).val < win0_3.index t (1 : Fin 2) * 512 + 512
    rw [e31]; omega

/-- The result array after the region is the one function of the three staged arrays. -/
theorem final (c : Dev nD) :
    (dats m 0 c).arrAt 3 cfg0.N = rowsOut (V m c main_v8) (V m c main_v7) (V m c main_v5) :=
  (dats m 0 c).arrAt_eq_of_cover 3 (rowsOut (V m c main_v8) (V m c main_v7) (V m c main_v5))
    (fun t _ => flushed_eq m c t) covered

end Cert.KernelIdeal.Blocks

end
-- ==== Proof.KernelHost.lean ====
/-
  What the kernel's host lines hand to the region.

  Before the region the host reshapes the input x (64 × 2048 × 512) to 131072 rows of 512, transposes the input
  weight Wi (and changes its float format, the identity at the ideal values), and adds the input bias row to the
  hidden-to-hidden row h0 · Whᵀ + bh. Read by coordinates: row b · 2048 + s of the reshaped input is x (b, s, ·);
  entry (k, q) of the transposed weight is Wi (q, k); entry (0, q) of the combined bias is bi (q) plus the hidden
  row's entry q.
-/
import proofs.«173775_j39865886441575_2_alg».proof.Proof.Gen.KernelIdeal.Frame
import Idealize.ShloMosaic.Lib.StableHlo.Run
import Idealize.ShloMosaic.Lib.Pipeline.Value
import Idealize.ShloMosaic.Lib.ValueIdx

noncomputable section

open scoped BigOperators

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

/-- The hidden-to-hidden row h0 · Whᵀ + bh, as the host computes it. -/
def hiddenRow (Wh : FVec Ideal S512x512 .f32) (bh : FVec Ideal S512 .f32) (h0 : FVec Ideal S1x512 .f32) :
    FVec Ideal S1x512 .f32 :=
  addf (Host.dotGeneral (F := Ideal) dot_S1x512_S512x512_S1x512_1_0_0_1_n_n none h0
      (transpose S512x512 [1, 0] Wh transposes_S512x512_S512x512_1_0))
    (broadcastInDim S1x512 ![1] bcast_S512_S1x512_1 bh)

/-- The input as 131072 rows. -/
def flatRows (x : FVec Ideal S64x2048x512 .f32) : FVec Ideal S131072x512 .f32 :=
  shapeCast S131072x512 x shapeCasts_S64x2048x512_S131072x512

/-- The input weight transposed (its change of float format is the identity at the ideal values). -/
def weightT (Wi : FVec Ideal S512x512 .f32) : FVec Ideal S512x512 .bf16 :=
  truncf .bf16 (transpose S512x512 [1, 0] Wi transposes_S512x512_S512x512_1_0) bitsLt_bf16_f32

/-- The input bias row plus the hidden-to-hidden row. -/
def biasRow (bi : FVec Ideal S512 .f32) (P : FVec Ideal S1x512 .f32) : FVec Ideal S1x512 .f32 :=
  addf (broadcastInDim S1x512 ![1] bcast_S512_S1x512_1 bi) P

variable (m : (ℓ : Loc nD τ sig) → Buf (Elt Ideal) ℓ)

/-- The region finds the reshaped input in the array its first window stages. -/
theorem staged_rows (c : Dev nD) :
    (V m c main_v8 : S131072x512.Idx → EReal) = flatRows (m ((c : Thread nD τ).loc main_arg0)) := by
  show StableHlo.after hostOps0 (fun b => m (c, b)) (Proc.devRef .tc main_v8) = _
  after_results
  rfl

/-- The region finds the transposed input weight in the array its second window stages. -/
theorem staged_weight (c : Dev nD) :
    (V m c main_v7 : S512x512.Idx → EReal) = weightT (m ((c : Thread nD τ).loc main_arg1)) := by
  show StableHlo.after hostOps0 (fun b => m (c, b)) (Proc.devRef .tc main_v7) = _
  after_results
  rfl

/-- The region finds the combined bias row in the array its third window stages. -/
theorem staged_bias (c : Dev nD) :
    (V m c main_v5 : S1x512.Idx → EReal)
      = biasRow (m ((c : Thread nD τ).loc main_arg2))
          (hiddenRow (m ((c : Thread nD τ).loc main_arg3)) (m ((c : Thread nD τ).loc main_arg4)) (m ((c : Thread nD τ).loc main_arg5))) := by
  show StableHlo.after hostOps0 (fun b => m (c, b)) (Proc.devRef .tc main_v5) = _
  after_results
  rfl

/-! ## Read by coordinates -/

/-- Row b · 2048 + s of the reshaped input is x (b, s, ·). -/
theorem flatRows_apply (x : FVec Ideal S64x2048x512 .f32) (b : Fin 64) (s : Fin 2048) (k : Fin 512) (r : Fin 131072)
    (hr : r.val = b.val * 2048 + s.val) : flatRows x (ix2 r k) = x (ix3 b s k) := by
  unfold flatRows
  refine shapeCast_apply x shapeCasts_S64x2048x512_S131072x512 (ix2 r k) (ix3 b s k) ?_
  rw [Shape.rowMajor_val_three, Shape.rowMajor_val_two]
  show (b.val * 2048 + s.val) * 512 + k.val = r.val * 512 + k.val
  rw [hr]

/-- Entry (k, q) of the transposed weight is Wi (q, k). -/
theorem weightT_apply (Wi : FVec Ideal S512x512 .f32) (k q : Fin 512) : weightT Wi (ix2 k q) = Wi (ix2 q k) := by
  unfold weightT
  show transpose S512x512 [1, 0] Wi transposes_S512x512_S512x512_1_0 (ix2 k q) = _
  exact transpose_apply [1, 0] Wi transposes_S512x512_S512x512_1_0 (ix2 k q) (ix2 q k) (fun a => match a with
    | ⟨0, _⟩ => rfl
    | ⟨1, _⟩ => rfl)

/-- Entry (0, q) of the combined bias row is bi (q) plus the hidden row's entry q. -/
theorem biasRow_apply (bi : FVec Ideal S512 .f32) (P : FVec Ideal S1x512 .f32) (q : Fin 512) :
    biasRow bi P (ix2 (0 : Fin 1) q) = bi (ix1 q) + P (ix2 (0 : Fin 1) q) := by
  unfold biasRow
  rw [addf_apply]
  congr 1
  exact broadcastInDim_apply _ bcast_S512_S1x512_1 bi (ix2 (0 : Fin 1) q) (ix1 q) (fun a => match a with
    | ⟨0, _⟩ => by show q.val = if (512 : Nat) = 1 then 0 else q.val; rw [if_neg (by decide)])

end Cert.KernelIdeal.Host

end
-- ==== Proof.KernelValue.lean ====
/-
  The kernel's run, read: its result is the specification.

  After the region the host reshapes the 131072 × 512 result array back to batch × time × hidden and writes the
  constant 1. Row b · 2048 + s of the result array is entry (b, s, ·) of the output, that row of the flattened input
  is x (b, s, ·), column h of the transposed weight is row h of Wi, and the combined bias row's entry h is
  bi (h) plus the hidden row's entry h. So the output at (b, s, h) is

      tanh ( Σ_k x (b, s, k) · Wi (h, k)  +  ( bi (h) + P (0, h) ) ),

  the specification with the two bias terms added first.
-/
import proofs.«173775_j39865886441575_2_alg».proof.Proof.Gen.KernelIdeal.Frame
import proofs.«173775_j39865886441575_2_alg».proof.Proof.KernelBlocks
import proofs.«173775_j39865886441575_2_alg».proof.Proof.KernelHost
import proofs.«173775_j39865886441575_2_alg».proof.Proof.Spec
import Idealize.ShloMosaic.Lib.StableHlo.Run
import Idealize.ShloMosaic.Lib.Pipeline.Value
import Idealize.ShloMosaic.Lib.ValueIdx

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

/-- The result array of the flattened input, the transposed weight and the combined bias row, reshaped to
    batch × time × hidden, is the specification. -/
theorem reshaped_eq_out (x : FVec Ideal S64x2048x512 .f32) (Wi : FVec Ideal S512x512 .f32) (bi : FVec Ideal S512 .f32)
    (P : FVec Ideal S1x512 .f32) :
    shapeCast S64x2048x512 (Blocks.rowsOut (Host.flatRows x) (Host.weightT Wi) (Host.biasRow bi P))
        shapeCasts_S131072x512_S64x2048x512
      = Cert.RnnSpec.out x Wi bi P := by
  funext i
  obtain ⟨b, s, h, rfl⟩ : ∃ (b : Fin 64) (s : Fin 2048) (h : Fin 512), i = ix3 b s h := ⟨i 0, i 1, i 2, eq_ix3 i⟩
  have hb : b.val < 64 := b.isLt
  have hs : s.val < 2048 := s.isLt
  have hr : b.val * 2048 + s.val < 131072 := by omega
  rw [Cert.RnnSpec.out_apply_biases_first]
  refine (shapeCast_apply _ shapeCasts_S131072x512_S64x2048x512 (ix3 b s h)
    (ix2 (⟨b.val * 2048 + s.val, hr⟩ : Fin 131072) h) ?_).trans ?_
  · rw [Shape.rowMajor_val_two, Shape.rowMajor_val_three]
    rfl
  · rw [Blocks.rowsOut_apply, Host.biasRow_apply]
    unfold Cert.RnnSpec.inProj
    simp only [fun k : Fin 512 => Host.flatRows_apply x b s k (⟨b.val * 2048 + s.val, hr⟩ : Fin 131072) rfl,
      Host.weightT_apply]

variable (m : (ℓ : Loc nD τ sig) → Buf (Elt Ideal) ℓ) (ρ : Dev nD → PrngReg)

/-- The hidden-to-hidden row of the launch contents. -/
abbrev hidden (c : Dev nD) : FVec Ideal S1x512 .f32 :=
  Host.hiddenRow (m ((c : Thread nD τ).loc main_arg3)) (m ((c : Thread nD τ).loc main_arg4)) (m ((c : Thread nD τ).loc main_arg5))

/-- After the host's last lines the first result is the result array reshaped, hence the specification of the
    launch contents. -/
theorem tail_out (c : Dev nD) :
    (Pipeline.afterTail₀ cfgs (dats m) 0 (V0 m) [hostOps1] c main_v10 : S64x2048x512.Idx → EReal)
      = Cert.RnnSpec.out (m ((c : Thread nD τ).loc main_arg0)) (m ((c : Thread nD τ).loc main_arg1))
          (m ((c : Thread nD τ).loc main_arg2)) (hidden m c) := by
  unfold Pipeline.afterTail₀
  show StableHlo.after hostOps1 _ (Proc.devRef .tc main_v10) = _
  after_results
  have h9 : Pipeline.withArrays (cfgs 0).spec c (V0 m c) (fun w => (dats m 0 c).arrAt w (cfgs 0).N) (Proc.devRef .tc main_v9)
      = Blocks.rowsOut (V m c main_v8) (V m c main_v7) (V m c main_v5) :=
    (Pipeline.withArrays_arr spec0 launch0.win.arr_inj c (V0 m c) (fun w => (dats m 0 c).arrAt w cfg0.N) 3).trans
      (Blocks.final m c)
  rw [h9, Host.staged_rows, Host.staged_weight, Host.staged_bias]
  exact reshaped_eq_out _ _ _ _

/-- The second result is the constant 1. -/
theorem tail_one (c : Dev nD) :
    (Pipeline.afterTail₀ cfgs (dats m) 0 (V0 m) [hostOps1] c main_c : S_.Idx → BitVec 32) = constantI S_ 32 1#32 := by
  unfold Pipeline.afterTail₀
  show StableHlo.after hostOps1 _ (Proc.devRef .tc main_c) = _
  after_results

/-- The kernel's run: every weakly fair execution terminates with the first result at the specification of the
    launch contents, the second at the constant 1, and the arguments unchanged. -/
theorem run : θ_run defs (onTc (τ := τ) (main (F := Ideal))) ⟨m, fun _ => 0, ρ⟩ fun r => ∀ c : Dev nD,
      r.2.mem ((c.tc : Thread nD τ).loc main_v10)
        = Cert.RnnSpec.out (m ((c : Thread nD τ).loc main_arg0)) (m ((c : Thread nD τ).loc main_arg1))
            (m ((c : Thread nD τ).loc main_arg2)) (hidden m c)
      ∧ r.2.mem ((c.tc : Thread nD τ).loc main_c) = constantI S_ 32 1#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v10 (Pipeline.mem_restRefs_of main_v10 (by decide) (by decide))).trans (tail_out m c),
      ((h c).2 main_c (Pipeline.mem_restRefs_of main_c (by decide) (by decide))).trans (tail_one m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.lean ====
/-
  A recurrent cell whose hidden state is never updated, as one fused pass against its plain reference.

  Both programs compute, at batch b, timestep s and hidden unit h,

      tanh of  Σ_k x (b, s, k) · Wi (h, k),  bi (h)  and  P (0, h)  added together,

  where P = h0 · Whᵀ + bh is the hidden-to-hidden row, the same at every timestep, which both programs compute by
  the same four host operations. The reference adds the input bias to the projection and then the row P; the kernel
  adds the two bias rows on the host, and in its region multiplies 2048 rows of the flattened input at a time by the
  transposed weight into a zero accumulator, adds the combined bias row and applies tanh. At the ideal values the
  changes of float format are the identity, the product into a zero accumulator and the host's contraction are the
  same sum over the embedding axis, and the two tanh are one function; the only difference left is the grouping of
  a three-term sum, and addition of extended reals is associative also at the infinities. So the precondition is
  never opened.

  The modules: Spec (the output as one function of the arguments, and the regrouping), RefIsSpec (the reference's
  run is it), KernelBody (one entry of what a grid point stores), KernelHost (what the host lines hand to the
  region), KernelBlocks (the 64 blocks tile the result array), KernelValue (the kernel's run is the specification).
  No operation of the kernel is rewritten in its idealization, which is its own text read at the ideal values.
-/
import proofs.«173775_j39865886441575_2_alg».proof.Defs
import proofs.«173775_j39865886441575_2_alg».proof.Proof.Gen.Kernel
import proofs.«173775_j39865886441575_2_alg».proof.Proof.Gen.Kernel.Skeleton
import proofs.«173775_j39865886441575_2_alg».proof.Proof.Gen.Kernel.Launch
import proofs.«173775_j39865886441575_2_alg».proof.Proof.Gen.Kernel.Points
import proofs.«173775_j39865886441575_2_alg».proof.Proof.Gen.Kernel.Frame
import proofs.«173775_j39865886441575_2_alg».proof.Proof.Gen.KernelIdeal
import proofs.«173775_j39865886441575_2_alg».proof.Proof.Gen.KernelIdeal.Skeleton
import proofs.«173775_j39865886441575_2_alg».proof.Proof.Gen.KernelIdeal.Launch
import proofs.«173775_j39865886441575_2_alg».proof.Proof.Gen.KernelIdeal.Points
import proofs.«173775_j39865886441575_2_alg».proof.Proof.Gen.KernelIdeal.Frame
import proofs.«173775_j39865886441575_2_alg».proof.Proof.Gen.ReferenceIdeal
import proofs.«173775_j39865886441575_2_alg».proof.Proof.Gen.Pre_finite_inputs
import proofs.«173775_j39865886441575_2_alg».proof.Proof.Gen.ReferenceIdeal.Run
import proofs.«173775_j39865886441575_2_alg».proof.Proof.Gen.ReferenceIdeal.Read
import proofs.«173775_j39865886441575_2_alg».proof.Proof.RefIsSpec
import proofs.«173775_j39865886441575_2_alg».proof.Proof.KernelValue
import Idealize.ShloMosaic.Adequacy
import Idealize.ShloMosaic.Init

noncomputable section

namespace Cert.Proof

open Idealize.ShloMosaic Idealize.ShloMosaic.TcCoe Idealize.SL.Sem

/-- The two programs compute the hidden-to-hidden row h0 · Whᵀ + bh by the same operations of the same arguments. -/
theorem hidden_rows_agree (x3 : (⟨Cert.ReferenceIdeal.S512x512, .f32⟩ : BufTy).Contents (Elt Ideal))
    (x4 : (⟨Cert.ReferenceIdeal.S512, .f32⟩ : BufTy).Contents (Elt Ideal))
    (x5 : (⟨Cert.ReferenceIdeal.S1x512, .f32⟩ : BufTy).Contents (Elt Ideal)) :
    Cert.ReferenceIdeal.Read.val_main_v3 (F := Ideal) x3 x4 x5 = Cert.KernelIdeal.Host.hiddenRow x3 x4 x5 := rfl

/-- The kernel as printed runs and keeps its arguments. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- And the reference: its run with the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- No operation of the kernel is rewritten in its idealization: nothing to restate. -/
theorem preserves : Cert.preserves_Kernel_KernelIdeal := trivial

/-- From memories agreeing on the arguments both programs end with the specification of those arguments as the first
    result and the constant 1 as the second: the kernel by its run read back, the reference by its run read one
    operation at a time, the hidden-to-hidden row the same term on both sides. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq_out, hidden_rows_agree,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
